-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S8192x2048 .f32) (main_arg1 : FVec F S8192x2048 .f32) (main_arg2 : FVec F S2048x2048 .f32) (main_arg3 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S8192x2048 : Shape := ⟨2, ![8192, 2048]⟩
abbrev S2048x2048 : Shape := ⟨2, ![2048, 2048]⟩
abbrev S_ : Shape := ⟨0, ![]⟩
abbrev S128x2048 : Shape := ⟨2, ![128, 2048]⟩

abbrev nBuf : Space → Nat
  | .hbm => 94
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .i1⟩
  | .hbm, ⟨23, _⟩ => ⟨S_, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .i1⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S_, .f32⟩
  | .hbm, ⟨61, _⟩ => ⟨S2048x2048, .f32⟩
  | .hbm, ⟨62, _⟩ => ⟨S2048x2048, .f32⟩
  | .hbm, ⟨63, _⟩ => ⟨S_, .f32⟩
  | .hbm, ⟨64, _⟩ => ⟨S2048x2048, .f32⟩
  | .hbm, ⟨65, _⟩ => ⟨S2048x2048, .i1⟩
  | .hbm, ⟨66, _⟩ => ⟨S_, .f32⟩
  | .hbm, ⟨67, _⟩ => ⟨S_, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S_, .f32⟩
  | .hbm, ⟨73, _⟩ => ⟨S2048x2048, .f32⟩
  | .hbm, ⟨74, _⟩ => ⟨S2048x2048, .i1⟩
  | .hbm, ⟨75, _⟩ => ⟨S_, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S2048x2048, .f32⟩
  | .hbm, ⟨84, _⟩ => ⟨S2048x2048, .f32⟩
  | .hbm, ⟨85, _⟩ => ⟨S_, .f32⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S2048x2048, .bf16⟩
  | .hbm, ⟨91, _⟩ => ⟨S2048x2048, .bf16⟩
  | .hbm, ⟨92, _⟩ => ⟨S8192x2048, .f32⟩
  | .hbm, ⟨93, _⟩ => ⟨S8192x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S2048x2048, .bf16⟩
  | .local _ .vmem, ⟨5, _⟩ => ⟨S2048x2048, .bf16⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_cst_6 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_v14 : Ref sig .tc := ⟨.hbm, 28, rfl⟩
abbrev main_cst_7 : Ref sig .tc := ⟨.hbm, 29, rfl⟩
abbrev main_v15 : Ref sig .tc := ⟨.hbm, 30, rfl⟩
abbrev main_v16 : Ref sig .tc := ⟨.hbm, 31, rfl⟩
abbrev main_cst_8 : Ref sig .tc := ⟨.hbm, 32, rfl⟩
abbrev main_v17 : Ref sig .tc := ⟨.hbm, 33, rfl⟩
abbrev main_v18 : Ref sig .tc := ⟨.hbm, 34, rfl⟩
abbrev main_call2_v0 : Ref sig .tc := ⟨.hbm, 35, rfl⟩
abbrev main_v19 : Ref sig .tc := ⟨.hbm, 36, rfl⟩
abbrev main_cst_9 : Ref sig .tc := ⟨.hbm, 37, rfl⟩
abbrev main_cst_10 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_11 : Ref sig .tc := ⟨.hbm, 48, rfl⟩
abbrev main_v24 : Ref sig .tc := ⟨.hbm, 49, rfl⟩
abbrev main_cst_12 : Ref sig .tc := ⟨.hbm, 50, rfl⟩
abbrev main_v25 : Ref sig .tc := ⟨.hbm, 51, rfl⟩
abbrev main_cst_13 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_14 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_15 : Ref sig .tc := ⟨.hbm, 60, rfl⟩
abbrev main_v32 : Ref sig .tc := ⟨.hbm, 61, rfl⟩
abbrev main_v33 : Ref sig .tc := ⟨.hbm, 62, rfl⟩
abbrev main_cst_16 : Ref sig .tc := ⟨.hbm, 63, rfl⟩
abbrev main_v34 : Ref sig .tc := ⟨.hbm, 64, rfl⟩
abbrev main_v35 : Ref sig .tc := ⟨.hbm, 65, rfl⟩
abbrev main_cst_17 : Ref sig .tc := ⟨.hbm, 66, rfl⟩
abbrev main_cst_18 : Ref sig .tc := ⟨.hbm, 67, rfl⟩
abbrev main_call5_v0 : Ref sig .tc := ⟨.hbm, 68, rfl⟩
abbrev main_call5_v1 : Ref sig .tc := ⟨.hbm, 69, rfl⟩
abbrev main_v36 : Ref sig .tc := ⟨.hbm, 70, rfl⟩
abbrev main_v37 : Ref sig .tc := ⟨.hbm, 71, rfl⟩
abbrev main_cst_19 : Ref sig .tc := ⟨.hbm, 72, rfl⟩
abbrev main_v38 : Ref sig .tc := ⟨.hbm, 73, rfl⟩
abbrev main_v39 : Ref sig .tc := ⟨.hbm, 74, rfl⟩
abbrev main_cst_20 : Ref sig .tc := ⟨.hbm, 75, rfl⟩
abbrev main_v40 : Ref sig .tc := ⟨.hbm, 76, rfl⟩
abbrev main_v41 : Ref sig .tc := ⟨.hbm, 77, rfl⟩
abbrev main_call6_v0 : Ref sig .tc := ⟨.hbm, 78, rfl⟩
abbrev main_v42 : Ref sig .tc := ⟨.hbm, 79, rfl⟩
abbrev main_cst_21 : Ref sig .tc := ⟨.hbm, 80, rfl⟩
abbrev main_cst_22 : Ref sig .tc := ⟨.hbm, 81, rfl⟩
abbrev main_call7_v0 : Ref sig .tc := ⟨.hbm, 82, rfl⟩
abbrev main_call7_v1 : Ref sig .tc := ⟨.hbm, 83, rfl⟩
abbrev main_call7_v2 : Ref sig .tc := ⟨.hbm, 84, rfl⟩
abbrev main_call7_v3 : Ref sig .tc := ⟨.hbm, 85, rfl⟩
abbrev main_call7_v4 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48_0 : Ref sig .tc := ⟨.hbm, 92, rfl⟩
abbrev main_v48_1 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S128x2048_S2048x2048_S128x2048_1_1_0_0_n_n_wf : DotDims.WF S128x2048 S2048x2048 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .f32 = 32 ∨ (Rect.block (s := S8192x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S8192x2048.size a
  hwx0_1 : ∀ i : grid0.Coords, EltTy.bits .f32 = 32 ∨ (Rect.block (s := S8192x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S8192x2048.size a
  hwx0_4 : ∀ i : grid0.Coords, EltTy.bits .f32 = 32 ∨ (Rect.block (s := S8192x2048) S128x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S8192x2048.size a
  hwx0_5 : ∀ i : grid0.Coords, EltTy.bits .f32 = 32 ∨ (Rect.block (s := S8192x2048) S128x2048.size (cc0_transform_5 i) (hinb0_5 i)).WholeWords (EltTy.packing .f32)

variable [Facts₀]

def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v48_0) S128x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v48_1) S128x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 104
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .i1⟩
  | .hbm, ⟨23, _⟩ => ⟨S_, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .i1⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S_, .f32⟩
  | .hbm, ⟨61, _⟩ => ⟨S2048x2048, .f32⟩
  | .hbm, ⟨62, _⟩ => ⟨S2048x2048, .f32⟩
  | .hbm, ⟨63, _⟩ => ⟨S_, .f32⟩
  | .hbm, ⟨64, _⟩ => ⟨S2048x2048, .f32⟩
  | .hbm, ⟨65, _⟩ => ⟨S2048x2048, .i1⟩
  | .hbm, ⟨66, _⟩ => ⟨S_, .f32⟩
  | .hbm, ⟨67, _⟩ => ⟨S_, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S_, .f32⟩
  | .hbm, ⟨73, _⟩ => ⟨S2048x2048, .f32⟩
  | .hbm, ⟨74, _⟩ => ⟨S2048x2048, .i1⟩
  | .hbm, ⟨75, _⟩ => ⟨S_, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S2048x2048, .f32⟩
  | .hbm, ⟨84, _⟩ => ⟨S2048x2048, .f32⟩
  | .hbm, ⟨85, _⟩ => ⟨S_, .f32⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S2048x2048, .f32⟩
  | .hbm, ⟨91, _⟩ => ⟨S2048x2048, .f32⟩
  | .hbm, ⟨92, _⟩ => ⟨S2048x2048, .f32⟩
  | .hbm, ⟨93, _⟩ => ⟨S2048x2048, .f32⟩
  | .hbm, ⟨94, _⟩ => ⟨S2048x2048, .f32⟩
  | .hbm, ⟨95, _⟩ => ⟨S8192x2048, .f32⟩
  | .hbm, ⟨96, _⟩ => ⟨S2048x2048, .f32⟩
  | .hbm, ⟨97, _⟩ => ⟨S8192x2048, .f32⟩
  | .hbm, ⟨98, _⟩ => ⟨S8192x2048, .f32⟩
  | .hbm, ⟨99, _⟩ => ⟨S2048x2048, .f32⟩
  | .hbm, ⟨100, _⟩ => ⟨S8192x2048, .f32⟩
  | .hbm, ⟨101, _⟩ => ⟨S2048x2048, .f32⟩
  | .hbm, ⟨102, _⟩ => ⟨S8192x2048, .f32⟩
  | .hbm, ⟨103, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_cst_6 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_v14 : Ref sig .tc := ⟨.hbm, 28, rfl⟩
abbrev main_cst_7 : Ref sig .tc := ⟨.hbm, 29, rfl⟩
abbrev main_v15 : Ref sig .tc := ⟨.hbm, 30, rfl⟩
abbrev main_v16 : Ref sig .tc := ⟨.hbm, 31, rfl⟩
abbrev main_cst_8 : Ref sig .tc := ⟨.hbm, 32, rfl⟩
abbrev main_v17 : Ref sig .tc := ⟨.hbm, 33, rfl⟩
abbrev main_v18 : Ref sig .tc := ⟨.hbm, 34, rfl⟩
abbrev main_call2_v0 : Ref sig .tc := ⟨.hbm, 35, rfl⟩
abbrev main_v19 : Ref sig .tc := ⟨.hbm, 36, rfl⟩
abbrev main_cst_9 : Ref sig .tc := ⟨.hbm, 37, rfl⟩
abbrev main_cst_10 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_11 : Ref sig .tc := ⟨.hbm, 48, rfl⟩
abbrev main_v24 : Ref sig .tc := ⟨.hbm, 49, rfl⟩
abbrev main_cst_12 : Ref sig .tc := ⟨.hbm, 50, rfl⟩
abbrev main_v25 : Ref sig .tc := ⟨.hbm, 51, rfl⟩
abbrev main_cst_13 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_14 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_15 : Ref sig .tc := ⟨.hbm, 60, rfl⟩
abbrev main_v32 : Ref sig .tc := ⟨.hbm, 61, rfl⟩
abbrev main_v33 : Ref sig .tc := ⟨.hbm, 62, rfl⟩
abbrev main_cst_16 : Ref sig .tc := ⟨.hbm, 63, rfl⟩
abbrev main_v34 : Ref sig .tc := ⟨.hbm, 64, rfl⟩
abbrev main_v35 : Ref sig .tc := ⟨.hbm, 65, rfl⟩
abbrev main_cst_17 : Ref sig .tc := ⟨.hbm, 66, rfl⟩
abbrev main_cst_18 : Ref sig .tc := ⟨.hbm, 67, rfl⟩
abbrev main_call5_v0 : Ref sig .tc := ⟨.hbm, 68, rfl⟩
abbrev main_call5_v1 : Ref sig .tc := ⟨.hbm, 69, rfl⟩
abbrev main_v36 : Ref sig .tc := ⟨.hbm, 70, rfl⟩
abbrev main_v37 : Ref sig .tc := ⟨.hbm, 71, rfl⟩
abbrev main_cst_19 : Ref sig .tc := ⟨.hbm, 72, rfl⟩
abbrev main_v38 : Ref sig .tc := ⟨.hbm, 73, rfl⟩
abbrev main_v39 : Ref sig .tc := ⟨.hbm, 74, rfl⟩
abbrev main_cst_20 : Ref sig .tc := ⟨.hbm, 75, rfl⟩
abbrev main_v40 : Ref sig .tc := ⟨.hbm, 76, rfl⟩
abbrev main_v41 : Ref sig .tc := ⟨.hbm, 77, rfl⟩
abbrev main_call6_v0 : Ref sig .tc := ⟨.hbm, 78, rfl⟩
abbrev main_v42 : Ref sig .tc := ⟨.hbm, 79, rfl⟩
abbrev main_cst_21 : Ref sig .tc := ⟨.hbm, 80, rfl⟩
abbrev main_cst_22 : Ref sig .tc := ⟨.hbm, 81, rfl⟩
abbrev main_call7_v0 : Ref sig .tc := ⟨.hbm, 82, rfl⟩
abbrev main_call7_v1 : Ref sig .tc := ⟨.hbm, 83, rfl⟩
abbrev main_call7_v2 : Ref sig .tc := ⟨.hbm, 84, rfl⟩
abbrev main_call7_v3 : Ref sig .tc := ⟨.hbm, 85, rfl⟩
abbrev main_call7_v4 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩

abbrev nD : Nat := 1
abbrev τ : Topo := Topo.v7x

variable {F : FTy → Type} [FloatOps F]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  transposes_S2048x2048_S2048x2048_1_0 : S2048x2048.Transposes [1, 0] S2048x2048
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Finite.lean ====
/-
  The precondition says every entry of the four argument arrays is a real number.

  The precondition is the conjunction of four tests "every |entry| is below +∞", one per argument array; an extended
  real whose magnitude is below +∞ is neither infinity.
-/
import proofs.«150472_j73555609911440_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

variable [Cert.Pre_finite_inputs.Facts]
open Cert.Pre_finite_inputs.Facts

instance : Subsingleton S_.Idx := ⟨fun a b => funext fun d => d.elim0⟩

/-- The word the tests compare against denotes +∞. -/
theorem top_word : Ideal.ofBits .f32 0x7F800000#32 = (⊤ : EReal) := by simp [Ideal.ofBits, Ideal.ieee]

/-- An extended real whose magnitude is below +∞ is a real. -/
theorem real_of_abs_lt_top (x : EReal) (h : Ideal.cmp .olt (max x (-x)) ⊤ = 1#1) : ∃ r : ℝ, x = (r : EReal) := by
  induction x using EReal.rec
  · exfalso; simp [Ideal.cmp] at h
  · exact ⟨_, rfl⟩
  · exfalso; simp [Ideal.cmp] at h

/-- Under the precondition all four argument arrays are real. -/
theorem all_real (a0 a1 : FVec Ideal S8192x2048 .f32) (a2 a3 : FVec Ideal S2048x2048 .f32)
    (h : fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h' := congrFun h ValueIdx.ix0
  dsimp only [fn, fn_part1] at h'
  obtain ⟨h012, h3⟩ := IntOp.andi_eq_one.1 h'
  obtain ⟨h01, h2⟩ := IntOp.andi_eq_one.1 h012
  obtain ⟨h0, h1⟩ := IntOp.andi_eq_one.1 h01
  refine ⟨fun i => ?_, fun i => ?_, fun i => ?_, fun i => ?_⟩
  · have e : Ideal.cmp .olt (max (a0 i) (-(a0 i))) (Ideal.ofBits .f32 0x7F800000#32) = 1#1 :=
      Host.reduce_andi_all _ _ _ _ _ h0 i
    rw [top_word] at e
    exact real_of_abs_lt_top _ e
  · have e : Ideal.cmp .olt (max (a1 i) (-(a1 i))) (Ideal.ofBits .f32 0x7F800000#32) = 1#1 :=
      Host.reduce_andi_all _ _ _ _ _ h1 i
    rw [top_word] at e
    exact real_of_abs_lt_top _ e
  · have e : Ideal.cmp .olt (max (a2 i) (-(a2 i))) (Ideal.ofBits .f32 0x7F800000#32) = 1#1 :=
      Host.reduce_andi_all _ _ _ _ _ h2 i
    rw [top_word] at e
    exact real_of_abs_lt_top _ e
  · have e : Ideal.cmp .olt (max (a3 i) (-(a3 i))) (Ideal.ofBits .f32 0x7F800000#32) = 1#1 :=
      Host.reduce_andi_all _ _ _ _ _ h3 i
    rw [top_word] at e
    exact real_of_abs_lt_top _ e

end Cert.Finite

end
-- ==== Proof.LibConsts.lean ====
/-
  The float literals both programs spell, as the extended reals their bit patterns denote, and small facts about the
  extended reals used to carry real-valued arrays through sums, products, quotients and square roots.
-/
import Idealize.ShloMosaic.PureOps.Ideal
import Idealize.ShloMosaic.PureOps.Ideal.Laws

noncomputable section

namespace Cert.Consts

open Idealize.ShloMosaic

theorem ofBits_zero : Ideal.ofBits .f32 0x00000000#32 = 0 := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
/-- 65536.0 = 32 · 2048, the number of (graph, node) rows. -/
theorem ofBits_rows : Ideal.ofBits .f32 0x47800000#32 = ((65536 : ℝ) : EReal) := by
  simp [Ideal.ofBits, Ideal.ieee, -EReal.coe_mul]; norm_num
/-- The variance's epsilon is a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real is the real 1 / √r. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- Division by a nonzero real is real division. -/
theorem div_real (x : ℝ) {y : ℝ} (h : y ≠ 0) : Ideal.div (x : EReal) (y : EReal) = ((x / y : ℝ) : EReal) := by
  rw [Ideal.div_coe h, ← EReal.coe_mul]; congr 1; field_simp

end Cert.Consts

end
-- ==== Proof.LibThreeProducts.lean ====
/-
  The algebra behind a complex-valued linear map evaluated with three real matrix products, and behind a clamped
  weight scaled by the mean magnitude of its array — over the extended reals, for arrays whose entries are real.

  A complex product (a + i b)(c + i d) has real part ac − bd and imaginary part ad + bc.  The imaginary part can be
  obtained from the two products of the real part and one more, (a + b)(c + d) − ac − bd = ad + bc; summed over a
  contraction index this is `three_products`.  It distributes a product over a sum and cancels, so it needs every
  entry finite: on the extended reals ⊤ − ⊤ is not 0.

  A weight passed "straight through" its quantizer is w + (q − w), which is q when both are real
  (`straight_through`).

  A clamp to [−1, 1] is real whatever its argument (`clamp_real`); the mean of the magnitudes of a real array,
  bounded below by a real, is real (`mean_abs_scale`); so their product is real.

  The float words −1.0, 4194304.0 (= 2048 · 2048) and 1e-6 denote reals (`ofBits_neg_one`, `ofBits_count`,
  `ofBits_tiny`).
-/
import proofs.«150472_j73555609911440_2_alg».proof.Proof.LibConsts

noncomputable section

open scoped BigOperators

namespace Cert.LibThreeProducts

open Idealize.ShloMosaic

theorem ofBits_neg_one : Ideal.ofBits .f32 0xBF800000#32 = ((-1 : ℝ) : EReal) := by
  simp [Ideal.ofBits, Ideal.ieee, -EReal.coe_mul]; norm_num

/-- 4194304.0 = 2048 · 2048, the number of entries of a weight array. -/
theorem ofBits_count : Ideal.ofBits .f32 0x4A800000#32 = ((4194304 : ℝ) : EReal) := by
  simp [Ideal.ofBits, Ideal.ieee, -EReal.coe_mul]; norm_num

/-- The lower bound of the scale (the float nearest 1e-6) is a real. -/
theorem ofBits_tiny : ∃ ε : ℝ, Ideal.ofBits .f32 0x358637BD#32 = (ε : EReal) :=
  ⟨_, by simp [Ideal.ofBits, Ideal.ieee, -EReal.coe_mul]; rfl⟩

/-- A real weight passed straight through its real quantized value is the quantized value. -/
theorem straight_through (w q : ℝ) : (w : EReal) + ((q : EReal) - (w : EReal)) = (q : EReal) := by
  rw [← EReal.coe_sub, ← EReal.coe_add]
  congr 1
  ring

/-- The imaginary part of a complex inner product from three real inner products. -/
theorem three_products {ι : Type*} [Fintype ι] (a b c d : ι → ℝ) :
    (∑ k, ((a k : EReal) + (b k : EReal)) * ((c k : EReal) + (d k : EReal)))
        - (∑ k, (a k : EReal) * (c k : EReal)) - (∑ k, (b k : EReal) * (d k : EReal))
      = (∑ k, (a k : EReal) * (d k : EReal)) + ∑ k, (b k : EReal) * (c k : EReal) := by
  simp only [← EReal.coe_add, ← EReal.coe_mul, ← Cert.Consts.coe_sum, ← EReal.coe_sub]
  congr 1
  rw [← Finset.sum_sub_distrib, ← Finset.sum_sub_distrib, ← Finset.sum_add_distrib]
  exact Finset.sum_congr rfl fun k _ => by ring

/-- A value clamped to [−1, 1] is real, whatever it was. -/
theorem clamp_real (z : EReal) : ∃ r : ℝ, min ((1 : ℝ) : EReal) (max ((-1 : ℝ) : EReal) z) = (r : EReal) := by
  have h1 : min ((1 : ℝ) : EReal) (max ((-1 : ℝ) : EReal) z) ≤ ((1 : ℝ) : EReal) := min_le_left _ _
  have h2 : ((-1 : ℝ) : EReal) ≤ min ((1 : ℝ) : EReal) (max ((-1 : ℝ) : EReal) z) :=
    le_min (EReal.coe_le_coe_iff.mpr (by norm_num)) (le_max_left _ _)
  have ht : min ((1 : ℝ) : EReal) (max ((-1 : ℝ) : EReal) z) ≠ ⊤ := ne_top_of_le_ne_top (EReal.coe_ne_top 1) h1
  have hb : min ((1 : ℝ) : EReal) (max ((-1 : ℝ) : EReal) z) ≠ ⊥ := ne_bot_of_le_ne_bot (EReal.coe_ne_bot (-1)) h2
  exact ⟨_, (EReal.coe_toReal ht hb).symm⟩

/-- The coercion of the reals into the extended reals commutes with the larger of two. -/
theorem coe_max (a b : ℝ) : ((max a b : ℝ) : EReal) = max (a : EReal) (b : EReal) :=
  EReal.coe_strictMono.monotone.map_max

/-- The magnitude of a real, as the larger of it and its negation. -/
theorem abs_coe (r : ℝ) : max (r : EReal) (-(r : EReal)) = ((|r| : ℝ) : EReal) := by
  rw [← EReal.coe_neg, ← coe_max, abs_eq_max_neg]

/-- The mean magnitude of a real array over a nonzero count, bounded below by a real, is a real. -/
theorem mean_abs_scale {ι : Type*} [Fintype ι] (r : ι → ℝ) {N : ℝ} (hN : N ≠ 0) (ε : ℝ) :
    max (Ideal.div ((0 : EReal) + ∑ j, max (r j : EReal) (-(r j : EReal))) (N : EReal)) (ε : EReal)
      = ((max ((∑ j, |r j|) / N) ε : ℝ) : EReal) := by
  simp only [abs_coe, ← Cert.Consts.coe_sum, zero_add]
  rw [Cert.Consts.div_real _ hN, ← coe_max]

end Cert.LibThreeProducts

end
-- ==== Proof.Quantizer.lean ====
/-
  The quantized weights are real arrays.

  Each weight array w is quantized as  clip (·, −1, 1) · s  with the scale s = max (mean |w|, 1e-6): whatever the
  rounding and the sign correction inside produce, the clip leaves a value in [−1, 1], and the scale of a real array
  is a real, so every entry of the quantized array is a real.  Both programs begin with this computation, operation
  for operation; it is read here off the reference's stages.
-/
import proofs.«150472_j73555609911440_2_alg».proof.Proof.Gen.ReferenceIdeal.Read
import proofs.«150472_j73555609911440_2_alg».proof.Proof.LibThreeProducts

noncomputable section

open scoped BigOperators

namespace Cert.Quant

open Cert.ReferenceIdeal Cert.ReferenceIdeal.Read Idealize.ShloMosaic Cert.LibThreeProducts

/-- The real-part weight's scale — the mean magnitude of the array, bounded below — is a real when the array is. -/
theorem scale_re_real (r : S2048x2048.Idx → ℝ) (j : S_.Idx) :
    ∃ s : ℝ, val_main_v3 (F := Ideal) (fun i => (r i : EReal)) j = (s : EReal) := by
  obtain ⟨ε, hε⟩ := ofBits_tiny
  refine ⟨max ((∑ i, |r i|) / 4194304) ε, ?_⟩
  rw [val_main_v3_apply, val_main_v2_apply, val_main_v1_apply]
  simp only [val_main_v0_apply, val_main_cst_apply, val_main_cst_0_apply, val_main_cst_1_apply, Ideal.maximumf_def, Ideal.hostDivf_def,
    Ideal.hostAbsf_def, Ideal.absf_def, Ideal.ofBits_def, Cert.Consts.ofBits_zero, ofBits_count, hε]
  exact mean_abs_scale r (by norm_num) ε

/-- The quantized real-part weight — a value clamped to [−1, 1] times the scale — is a real array when the weight is. -/
theorem quant_re_real (r : S2048x2048.Idx → ℝ) (i : S2048x2048.Idx) :
    ∃ q : ℝ, val_main_v22 (F := Ideal) (fun i => (r i : EReal)) i = (q : EReal) := by
  obtain ⟨s, hs⟩ := scale_re_real r (idx_main_v21 i)
  obtain ⟨z, hz⟩ := clamp_real (val_main_v19 (F := Ideal) (fun i => (r i : EReal)) i)
  refine ⟨z * s, ?_⟩
  rw [val_main_v22_apply, val_main_v21_apply, hs, val_main_v20_apply, val_main_call3_v4_apply, val_main_call3_v3_apply, val_main_cst_10_apply,
    val_main_call3_v2_apply, val_main_call3_v1_apply, val_main_call3_v0_apply, val_main_cst_9_apply]
  simp only [Ideal.mulf_def, Ideal.minimumf_def, Ideal.maximumf_def, Ideal.ofBits_def, Cert.Consts.ofBits_one,
    ofBits_neg_one]
  rw [hz, EReal.coe_mul]

/-- The imaginary-part weight's scale — the mean magnitude of the array, bounded below — is a real when the array is. -/
theorem scale_im_real (r : S2048x2048.Idx → ℝ) (j : S_.Idx) :
    ∃ s : ℝ, val_main_v26 (F := Ideal) (fun i => (r i : EReal)) j = (s : EReal) := by
  obtain ⟨ε, hε⟩ := ofBits_tiny
  refine ⟨max ((∑ i, |r i|) / 4194304) ε, ?_⟩
  rw [val_main_v26_apply, val_main_v25_apply, val_main_v24_apply]
  simp only [val_main_v23_apply, val_main_cst_11_apply, val_main_cst_12_apply, val_main_cst_13_apply, Ideal.maximumf_def, Ideal.hostDivf_def,
    Ideal.hostAbsf_def, Ideal.absf_def, Ideal.ofBits_def, Cert.Consts.ofBits_zero, ofBits_count, hε]
  exact mean_abs_scale r (by norm_num) ε

/-- The quantized imaginary-part weight — a value clamped to [−1, 1] times the scale — is a real array when the weight is. -/
theorem quant_im_real (r : S2048x2048.Idx → ℝ) (i : S2048x2048.Idx) :
    ∃ q : ℝ, val_main_v45 (F := Ideal) (fun i => (r i : EReal)) i = (q : EReal) := by
  obtain ⟨s, hs⟩ := scale_im_real r (idx_main_v44 i)
  obtain ⟨z, hz⟩ := clamp_real (val_main_v42 (F := Ideal) (fun i => (r i : EReal)) i)
  refine ⟨z * s, ?_⟩
  rw [val_main_v45_apply, val_main_v44_apply, hs, val_main_v43_apply, val_main_call7_v4_apply, val_main_call7_v3_apply, val_main_cst_22_apply,
    val_main_call7_v2_apply, val_main_call7_v1_apply, val_main_call7_v0_apply, val_main_cst_21_apply]
  simp only [Ideal.mulf_def, Ideal.minimumf_def, Ideal.maximumf_def, Ideal.ofBits_def, Cert.Consts.ofBits_one,
    ofBits_neg_one]
  rw [hz, EReal.coe_mul]

end Cert.Quant

end
-- ==== Proof.Spec.lean ====
/-
  What both programs compute, as one function of their four argument arrays: a complex-valued linear layer with
  weights quantized before use.

  The inputs are the real and imaginary parts x_re, x_im of 8192 rows of 2048 complex features and the real and
  imaginary parts of a [2048, 2048] complex weight (output, input).  Each weight part is replaced by a quantized
  array q_re, q_im of the same shape, and the result is the complex product x · qᵀ:

      y_re (p, c) = ∑ k, x_re (p, k) · q_re (c, k) − ∑ k, x_im (p, k) · q_im (c, k)
      y_im (p, c) = ∑ k, x_re (p, k) · q_im (c, k) + ∑ k, x_im (p, k) · q_re (c, k)

  over the 2048 input features k.  This module states the two result arrays for any quantized weights; which
  arrays those are is read off the programs.
-/
import Idealize.ShloMosaic.PureOps.Ideal
import Idealize.ShloMosaic.Lib.ValueIdx

noncomputable section

open scoped BigOperators

namespace Cert.Spec

open Idealize.ShloMosaic Idealize.ShloMosaic.ValueIdx

/-- The shape of the feature arrays and of the results. -/
abbrev SX : Shape := ⟨2, ![8192, 2048]⟩
/-- The shape of a weight array. -/
abbrev SW : Shape := ⟨2, ![2048, 2048]⟩

/-- The real part of the complex product x · qᵀ. -/
def yRe (xr xi : SX.Idx → EReal) (qr qi : SW.Idx → EReal) : SX.Idx → EReal := fun i =>
  (∑ k : Fin 2048, xr (ix2 (i 0 : Fin 8192) k) * qr (ix2 (i 1 : Fin 2048) k))
    - ∑ k : Fin 2048, xi (ix2 (i 0 : Fin 8192) k) * qi (ix2 (i 1 : Fin 2048) k)

/-- The imaginary part of the complex product x · qᵀ. -/
def yIm (xr xi : SX.Idx → EReal) (qr qi : SW.Idx → EReal) : SX.Idx → EReal := fun i =>
  (∑ k : Fin 2048, xr (ix2 (i 0 : Fin 8192) k) * qi (ix2 (i 1 : Fin 2048) k))
    + ∑ k : Fin 2048, xi (ix2 (i 0 : Fin 8192) k) * qr (ix2 (i 1 : Fin 2048) k)

theorem yRe_apply (xr xi : SX.Idx → EReal) (qr qi : SW.Idx → EReal) (p : Fin 8192) (c : Fin 2048) :
    yRe xr xi qr qi (ix2 p c)
      = (∑ k : Fin 2048, xr (ix2 p k) * qr (ix2 c k)) - ∑ k : Fin 2048, xi (ix2 p k) * qi (ix2 c k) := rfl

theorem yIm_apply (xr xi : SX.Idx → EReal) (qr qi : SW.Idx → EReal) (p : Fin 8192) (c : Fin 2048) :
    yIm xr xi qr qi (ix2 p c)
      = (∑ k : Fin 2048, xr (ix2 p k) * qi (ix2 c k)) + ∑ k : Fin 2048, xi (ix2 p k) * qr (ix2 c k) := rfl

end Cert.Spec

end
-- ==== Proof.RefValue.lean ====
/-
  The reference's two results are the complex product of the features with the quantized weights.

  The reference passes each weight straight through its quantizer, w + (q − w), which is the quantized weight q for
  real arrays; transposes it; and multiplies: y_re = x_re · q_reᵀ − x_im · q_imᵀ, y_im = x_re · q_imᵀ + x_im · q_reᵀ.
  Entry (p, c) of a product of x with a transposed weight is the sum over the input features k of x (p, k) times the
  weight at (c, k).
-/
import proofs.«150472_j73555609911440_2_alg».proof.Proof.Gen.ReferenceIdeal.Read
import proofs.«150472_j73555609911440_2_alg».proof.Proof.Quantizer
import proofs.«150472_j73555609911440_2_alg».proof.Proof.Spec

noncomputable section

open scoped BigOperators

namespace Cert.RefValue

open Cert.ReferenceIdeal Cert.ReferenceIdeal.Read Idealize.ShloMosaic Idealize.ShloMosaic.ValueIdx
open Cert.LibThreeProducts Cert.Spec

/-- The real-part weight passed straight through its quantizer is the quantized weight. -/
theorem through_re (r : S2048x2048.Idx → ℝ) (j : S2048x2048.Idx) :
    val_main_v47 (F := Ideal) (fun i => (r i : EReal)) j = val_main_v22 (F := Ideal) (fun i => (r i : EReal)) j := by
  obtain ⟨q, hq⟩ := Cert.Quant.quant_re_real r j
  rw [val_main_v47_apply, val_main_v46_apply, hq]
  exact straight_through (r j) q

/-- The imaginary-part weight passed straight through its quantizer is the quantized weight. -/
theorem through_im (r : S2048x2048.Idx → ℝ) (j : S2048x2048.Idx) :
    val_main_v49 (F := Ideal) (fun i => (r i : EReal)) j = val_main_v45 (F := Ideal) (fun i => (r i : EReal)) j := by
  obtain ⟨q, hq⟩ := Cert.Quant.quant_im_real r j
  rw [val_main_v49_apply, val_main_v48_apply, hq]
  exact straight_through (r j) q

/-! The operand indices of the four products at result index i and feature k: the feature array at (i 0, k) and,
    through the transpose, the weight at (i 1, k). -/

theorem lidx_51 (i : S8192x2048.Idx) (k : Fin 2048) : lidx_main_v51 i k = ix2 (i 0 : Fin 8192) k :=
  funext fun a => match a with | ⟨0, _⟩ => rfl | ⟨1, _⟩ => rfl
theorem ridx_51 (i : S8192x2048.Idx) (k : Fin 2048) : idx_main_v50 (ridx_main_v51 i k) = ix2 (i 1 : Fin 2048) k :=
  funext fun a => match a with | ⟨0, _⟩ => rfl | ⟨1, _⟩ => rfl

theorem lidx_53 (i : S8192x2048.Idx) (k : Fin 2048) : lidx_main_v53 i k = ix2 (i 0 : Fin 8192) k :=
  funext fun a => match a with | ⟨0, _⟩ => rfl | ⟨1, _⟩ => rfl
theorem ridx_53 (i : S8192x2048.Idx) (k : Fin 2048) : idx_main_v52 (ridx_main_v53 i k) = ix2 (i 1 : Fin 2048) k :=
  funext fun a => match a with | ⟨0, _⟩ => rfl | ⟨1, _⟩ => rfl

theorem lidx_56 (i : S8192x2048.Idx) (k : Fin 2048) : lidx_main_v56 i k = ix2 (i 0 : Fin 8192) k :=
  funext fun a => match a with | ⟨0, _⟩ => rfl | ⟨1, _⟩ => rfl
theorem ridx_56 (i : S8192x2048.Idx) (k : Fin 2048) : idx_main_v55 (ridx_main_v56 i k) = ix2 (i 1 : Fin 2048) k :=
  funext fun a => match a with | ⟨0, _⟩ => rfl | ⟨1, _⟩ => rfl

theorem lidx_58 (i : S8192x2048.Idx) (k : Fin 2048) : lidx_main_v58 i k = ix2 (i 0 : Fin 8192) k :=
  funext fun a => match a with | ⟨0, _⟩ => rfl | ⟨1, _⟩ => rfl
theorem ridx_58 (i : S8192x2048.Idx) (k : Fin 2048) : idx_main_v57 (ridx_main_v58 i k) = ix2 (i 1 : Fin 2048) k :=
  funext fun a => match a with | ⟨0, _⟩ => rfl | ⟨1, _⟩ => rfl

/-- The reference's first result is the real part of the complex product. -/
theorem result_re (x0 x1 : S8192x2048.Idx → EReal) (r2 r3 : S2048x2048.Idx → ℝ) :
    val_main_v54 (F := Ideal) x0 x1 (fun i => (r2 i : EReal)) (fun i => (r3 i : EReal))
      = yRe x0 x1 (val_main_v22 (F := Ideal) (fun i => (r2 i : EReal))) (val_main_v45 (F := Ideal) (fun i => (r3 i : EReal))) := by
  funext i
  rw [val_main_v54_apply, val_main_v51_apply, val_main_v53_apply]
  unfold yRe
  simp only [Ideal.subf_def, val_main_v50_apply, val_main_v52_apply, lidx_51, ridx_51, lidx_53, ridx_53]
  refine congrArg₂ (· - ·) (Finset.sum_congr rfl fun k _ => ?_) (Finset.sum_congr rfl fun k _ => ?_)
  · exact congrArg (x0 _ * ·) (through_re r2 _)
  · exact congrArg (x1 _ * ·) (through_im r3 _)

/-- The reference's second result is the imaginary part of the complex product. -/
theorem result_im (x0 x1 : S8192x2048.Idx → EReal) (r2 r3 : S2048x2048.Idx → ℝ) :
    val_main_v59 (F := Ideal) x0 x1 (fun i => (r2 i : EReal)) (fun i => (r3 i : EReal))
      = yIm x0 x1 (val_main_v22 (F := Ideal) (fun i => (r2 i : EReal))) (val_main_v45 (F := Ideal) (fun i => (r3 i : EReal))) := by
  funext i
  rw [val_main_v59_apply, val_main_v56_apply, val_main_v58_apply]
  unfold yIm
  simp only [Ideal.addf_def, val_main_v55_apply, val_main_v57_apply, lidx_56, ridx_56, lidx_58, ridx_58]
  refine congrArg₂ (· + ·) (Finset.sum_congr rfl fun k _ => ?_) (Finset.sum_congr rfl fun k _ => ?_)
  · exact congrArg (x0 _ * ·) (through_im r3 _)
  · exact congrArg (x1 _ * ·) (through_re r2 _)

/-- Both results, for weight arrays known only to be real entry by entry. -/
theorem results (x0 x1 : S8192x2048.Idx → EReal) (x2 x3 : S2048x2048.Idx → EReal)
    (h2 : ∀ i, ∃ r : ℝ, x2 i = (r : EReal)) (h3 : ∀ i, ∃ r : ℝ, x3 i = (r : EReal)) :
    val_main_v54 (F := Ideal) x0 x1 x2 x3 = yRe x0 x1 (val_main_v22 (F := Ideal) x2) (val_main_v45 (F := Ideal) x3)
      ∧ val_main_v59 (F := Ideal) x0 x1 x2 x3
          = yIm x0 x1 (val_main_v22 (F := Ideal) x2) (val_main_v45 (F := Ideal) x3) := by
  choose r2 e2 using h2
  choose r3 e3 using h3
  obtain rfl : x2 = fun i => (r2 i : EReal) := funext e2
  obtain rfl : x3 = fun i => (r3 i : EReal) := funext e3
  exact ⟨result_re x0 x1 r2 r3, result_im x0 x1 r2 r3⟩

end Cert.RefValue

end
-- ==== Proof.KernelArrays.lean ====
/-
  The weights the kernel's launch finds.

  Before the launch the kernel's program quantizes the two weight arrays on the host and narrows the results to
  bf16, which over the extended reals changes nothing.  So the arrays behind the launch's third and fourth operands
  are the quantized real-part and imaginary-part weights — the same composition of operations, applied to the same
  arguments, as the reference's stages of that name.
-/
import proofs.«150472_j73555609911440_2_alg».proof.Proof.Gen.KernelIdeal.Frame
import proofs.«150472_j73555609911440_2_alg».proof.Proof.Gen.ReferenceIdeal.Read
import Idealize.ShloMosaic.Lib.StableHlo.Run

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 4000000 in
/-- The array behind the third operand is the quantized real-part weight. -/
theorem weight_re (c : Dev nD) :
    (V m c main_v46 : S2048x2048.Idx → EReal)
      = Cert.ReferenceIdeal.Read.val_main_v22 (F := Ideal) (m ((c : Thread nD τ).loc main_arg2)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 4000000 in
/-- The array behind the fourth operand is the quantized imaginary-part weight. -/
theorem weight_im (c : Dev nD) :
    (V m c main_v47 : S2048x2048.Idx → EReal)
      = Cert.ReferenceIdeal.Read.val_main_v45 (F := Ideal) (m ((c : Thread nD τ).loc main_arg3)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

end Cert.KernelIdeal.Arrays

end
-- ==== Proof.LibGemmNT.lean ====
/-
  A matrix product against a transposed right operand, read at an entry; and an array whose middle axis is
  split in two, read at an index.

  When the dimension numbers contract the columns of the left operand [n, k] against the columns of the right
  operand [d, k] — the product A · Bᵀ, no batch axis — the contraction index is its one coordinate, and the sum
  over it of the operands' products at entry (p, c) is ∑ q, lhs (p, q) · rhs (c, q).  Read at the exact extended
  reals, a matrix-unit product into a zero accumulator and a host dot_general are both that sum, whatever
  their precision or schedule.

  A reshape keeps every element's row-major position: an [e, n, r] array with n = a · b, viewed as [e, a, b, r],
  holds at (i, p, s, j) the entry (i, p · b + s, j).
-/
import Idealize.ShloMosaic.Lib.Pipeline.Value
import Idealize.ShloMosaic.Lib.ValueIdx
import Idealize.ShloMosaic.PureOps.Ideal.Laws

noncomputable section

open scoped BigOperators

namespace Cert.LibGemmNT

open Idealize.ShloMosaic Idealize.ShloMosaic.ValueIdx

variable {n k d : ℕ}

/-- The sum over a one-axis contraction index, re-indexed by the axis's coordinate, for a product whose operand
    indices at output (p, c) and contraction coordinate q are (p, q) and (c, q). -/
theorem sum_contr_eq {φ₁ φ₂ : FTy} (D : DotDims ⟨2, ![n, k]⟩ ⟨2, ![d, k]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (i 1).val)
    (hr1 : ∀ (i : (⟨2, ![n, d]⟩ : Shape).Idx) (q : D.contr.Idx), (D.rhsIdx i q 1).val = (q ⟨0, by omega⟩).val)
    (lhs : FVec Ideal ⟨2, ![n, k]⟩ φ₁) (rhs : FVec Ideal ⟨2, ![d, k]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 c q) := by
  rw [← Equiv.sum_comp (contrEquiv1 D k hr hs).symm]
  refine Finset.sum_congr rfl fun q _ => ?_
  have hq := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hq)
  have er : D.rhsIdx (ix2 p c) ((contrEquiv1 D k hr hs).symm q) = ix2 c q := funext fun a => Fin.ext (by
    match a with
    | ⟨0, _⟩ => exact hr0 _ _
    | ⟨1, _⟩ => exact (hr1 _ _).trans hq)
  rw [el, er]

/-- A matrix-unit product A · Bᵀ into the zero accumulator, at entry (p, c). -/
theorem matmul_zero_apply {φ₁ φ₂ : FTy} (D : DotDims ⟨2, ![n, k]⟩ ⟨2, ![d, k]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (i 1).val)
    (hr1 : ∀ (i : (⟨2, ![n, d]⟩ : Shape).Idx) (q : D.contr.Idx), (D.rhsIdx i q 1).val = (q ⟨0, by omega⟩).val)
    (prec : Option ContractPrecision) (lhs : FVec Ideal ⟨2, ![n, k]⟩ φ₁) (rhs : FVec Ideal ⟨2, ![d, k]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 c q) := by
  rw [Ideal.matmul_constant_zero_apply]
  exact sum_contr_eq D hr hs hl0 hl1 hr0 hr1 lhs rhs p c

/-- A host dot_general A · Bᵀ, at entry (p, c). -/
theorem dotGeneral_apply {φ₁ φ₂ : FTy} (D : DotDims ⟨2, ![n, k]⟩ ⟨2, ![d, k]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (i 1).val)
    (hr1 : ∀ (i : (⟨2, ![n, d]⟩ : Shape).Idx) (q : D.contr.Idx), (D.rhsIdx i q 1).val = (q ⟨0, by omega⟩).val)
    (prec : Option ContractPrecision) (sched : HostSchedule)
    (lhs : FVec Ideal ⟨2, ![n, k]⟩ φ₁) (rhs : FVec Ideal ⟨2, ![d, k]⟩ φ₂) (p : Fin n) (c : Fin d) :
    FloatOps.dotGeneral D prec sched lhs rhs (ix2 p c) = ∑ q : Fin k, lhs (ix2 p q) * rhs (ix2 c q) := by
  rw [Ideal.dotGeneral_apply]
  exact sum_contr_eq D hr hs hl0 hl1 hr0 hr1 lhs rhs p c

variable {α : Type}

/-- An [e, n, r] array with n = a · b cast to [e, a, b, r] reads, at (i, p, s, j), the operand at (i, p · b + s, j). -/
theorem shapeCast_enr_eabr_apply {e m a b r : ℕ} (x : (⟨3, ![e, m, r]⟩ : Shape).Idx → α)
    (h : (⟨3, ![e, m, r]⟩ : Shape).ShapeCasts ⟨4, ![e, a, b, r]⟩) (hm : m = a * b)
    (i : Fin e) (p : Fin a) (s : Fin b) (j : Fin r) (t : Fin m) (ht : t.val = p.val * b + s.val) :
    shapeCast ⟨4, ![e, a, b, r]⟩ x h (ix4 i p s j) = x (ix3 i t j) :=
  shapeCast_apply x h _ _ (by
    rw [Shape.rowMajor_val_three, Shape.rowMajor_val_four]
    show (i.val * m + t.val) * r + j.val = ((i.val * a + p.val) * b + s.val) * r + j.val
    rw [ht, hm]
    ring)

end Cert.LibGemmNT

end
-- ==== Proof.KernelBlock.lean ====
/-
  One block of the kernel's two results, entry by entry.

  At a grid point the kernel holds 128 rows of x_re and x_im and the whole quantized weights w_re, w_im (one row per
  output feature).  It forms three matrix products against the transposed weights, each into a zero accumulator:

      m1 = x_re · w_reᵀ,    m2 = x_im · w_imᵀ,    m3 = (x_re + x_im) · (w_re + w_im)ᵀ,

  and stores m1 − m2 and (m3 − m1) − m2.  Read at the exact extended reals (where narrowing a float's format
  changes nothing), entry (p, c) of each product is the sum over the 2048 input features q of the left operand at
  (p, q) times the right operand at (c, q).
-/
import proofs.«150472_j73555609911440_2_alg».proof.Proof.Gen.KernelIdeal.Skeleton
import proofs.«150472_j73555609911440_2_alg».proof.Proof.LibGemmNT
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- The products' dimension numbers: both operands contracted on their second axis, no batch axis. -/
abbrev D := dot_S128x2048_S2048x2048_S128x2048_1_1_0_0_n_n

theorem lhs0 (i : S128x2048.Idx) (q : D.contr.Idx) : (D.lhsIdx i q 0).val = (i 0).val := by
  unfold DotDims.lhsIdx
  rw [dif_neg (show ¬(0 : Fin S128x2048.rank) ∈ D.lhsBatch by decide),
    dif_pos (show (0 : Fin S128x2048.rank) ∈ D.lhsNonContracting by decide)]
  rfl

theorem lhs1 (i : S128x2048.Idx) (q : D.contr.Idx) : (D.lhsIdx i q 1).val = (q ⟨0, by decide⟩).val :=
  D.lhsIdx_val_of_single rfl i q

theorem rhs0 (i : S128x2048.Idx) (q : D.contr.Idx) : (D.rhsIdx i q 0).val = (i 1).val := by
  unfold DotDims.rhsIdx
  rw [dif_neg (show ¬(0 : Fin S2048x2048.rank) ∈ D.rhsBatch by decide),
    dif_pos (show (0 : Fin S2048x2048.rank) ∈ D.rhsNonContracting by decide)]
  rfl

theorem rhs1 (i : S128x2048.Idx) (q : D.contr.Idx) : (D.rhsIdx i q 1).val = (q ⟨0, by decide⟩).val :=
  D.rhsIdx_val_of_single rfl i q

/-- A product a · bᵀ into the zero accumulator at entry (p, c). -/
theorem product_apply {φ₁ φ₂ : FTy} (a : FVec Ideal S128x2048 φ₁) (b : FVec Ideal S2048x2048 φ₂)
    (p : Fin 128) (c : Fin 2048) :
    matmul D none a b (constant (F := Ideal) S128x2048 .f32 0x00000000#32) (ix2 p c)
      = ∑ q : Fin 2048, a (ix2 p q) * b (ix2 c q) :=
  Cert.LibGemmNT.matmul_zero_apply D rfl rfl lhs0 lhs1 rhs0 rhs1 none a b p c

/-- The first stored block, m1 − m2, at entry (p, c). -/
theorem re_block_apply (x0 x1 : Vec Ideal S128x2048 .f32) (w0 w1 : Vec Ideal S2048x2048 .bf16)
    (p : Fin 128) (c : Fin 2048) :
    k0_pay7 (F := Ideal) x0 x1 w0 w1 (ix2 p c)
      = (∑ q : Fin 2048, x0 (ix2 p q) * w0 (ix2 c q)) - ∑ q : Fin 2048, x1 (ix2 p q) * w1 (ix2 c q) := by
  unfold k0_pay7 k0_pay5 k0_pay6 k0_pay1 k0_pay2 k0_pay3 k0_pay4
  simp only [shapeCast_self]
  refine (subf_apply _ _ _).trans ?_
  rw [product_apply, product_apply]
  rfl

/-- The second stored block, (m3 − m1) − m2, at entry (p, c). -/
theorem im_block_apply (x0 x1 : Vec Ideal S128x2048 .f32) (w0 w1 : Vec Ideal S2048x2048 .bf16)
    (p : Fin 128) (c : Fin 2048) :
    k0_pay8 (F := Ideal) x0 x1 w0 w1 (ix2 p c)
      = ((∑ q : Fin 2048, (x0 (ix2 p q) + x1 (ix2 p q)) * (w0 (ix2 c q) + w1 (ix2 c q)))
          - ∑ q : Fin 2048, x0 (ix2 p q) * w0 (ix2 c q)) - ∑ q : Fin 2048, x1 (ix2 p q) * w1 (ix2 c q) := by
  unfold k0_pay8 k0_pay5 k0_pay6 k0_pay1 k0_pay2 k0_pay3 k0_pay4
  simp only [shapeCast_self]
  refine (subf_apply _ _ _).trans ?_
  refine congrArg₂ (· - ·) ((subf_apply _ _ _).trans ?_) ?_
  · rw [product_apply, product_apply]
    rfl
  · rw [product_apply]
    rfl

end Cert.KernelIdeal.Block

end
-- ==== Proof.BlockSpec.lean ====
/-
  A block of the kernel's results is a block of the complex product.

  At a grid point the kernel's feature blocks are 128 consecutive rows of x_re and x_im and its weight blocks are the
  whole quantized weights.  Entry (p, c) of the first stored block is then the real part of the complex product at
  row (first row of the block) + p and column c, with no algebra: both are m1 − m2.  The second stored block is
  (m3 − m1) − m2 with m3 the product of the sums; for real arrays this is the imaginary part x_re · q_imᵀ +
  x_im · q_reᵀ, by distributing the product of sums and cancelling.
-/
import proofs.«150472_j73555609911440_2_alg».proof.Proof.KernelBlock
import proofs.«150472_j73555609911440_2_alg».proof.Proof.Spec
import proofs.«150472_j73555609911440_2_alg».proof.Proof.LibThreeProducts

noncomputable section

open scoped BigOperators

namespace Cert.KernelIdeal.BlockSpec

open Cert.KernelIdeal Cert.KernelIdeal.Gen Cert.KernelIdeal.Block Idealize.ShloMosaic Idealize.ShloMosaic.ValueIdx
open Cert.Spec Cert.LibThreeProducts

variable (x0 x1 : Vec Ideal S128x2048 .f32) (w0 w1 : Vec Ideal S2048x2048 .bf16)
  (X0 X1 : SX.Idx → EReal) (Q0 Q1 : SW.Idx → EReal) (T : ℕ)

/-- The first stored block at (p, c) is the real part of the product at (row, c), for feature blocks that are rows
    T · 128 … of the feature arrays and weight blocks that are the quantized weights. -/
theorem re_block_spec
    (hx0 : ∀ (p : Fin 128) (q : Fin 2048) (P : Fin 8192), P.val = T * 128 + p.val → x0 (ix2 p q) = X0 (ix2 P q))
    (hx1 : ∀ (p : Fin 128) (q : Fin 2048) (P : Fin 8192), P.val = T * 128 + p.val → x1 (ix2 p q) = X1 (ix2 P q))
    (hw0 : ∀ (c q : Fin 2048), w0 (ix2 c q) = Q0 (ix2 c q))
    (hw1 : ∀ (c q : Fin 2048), w1 (ix2 c q) = Q1 (ix2 c q))
    (p : Fin 128) (c : Fin 2048) (P : Fin 8192) (hP : P.val = T * 128 + p.val) :
    k0_pay7 (F := Ideal) x0 x1 w0 w1 (ix2 p c) = yRe X0 X1 Q0 Q1 (ix2 P c) := by
  rw [re_block_apply, yRe_apply]
  refine congrArg₂ (· - ·) (Finset.sum_congr rfl fun k _ => ?_) (Finset.sum_congr rfl fun k _ => ?_)
  · rw [hx0 p k P hP, hw0]
  · rw [hx1 p k P hP, hw1]

/-- The second stored block at (p, c) is the imaginary part of the product at (row, c), when every array is real. -/
theorem im_block_spec (r0 r1 : SX.Idx → ℝ) (s0 s1 : SW.Idx → ℝ)
    (hX0 : ∀ i, X0 i = (r0 i : EReal)) (hX1 : ∀ i, X1 i = (r1 i : EReal))
    (hQ0 : ∀ i, Q0 i = (s0 i : EReal)) (hQ1 : ∀ i, Q1 i = (s1 i : EReal))
    (hx0 : ∀ (p : Fin 128) (q : Fin 2048) (P : Fin 8192), P.val = T * 128 + p.val → x0 (ix2 p q) = X0 (ix2 P q))
    (hx1 : ∀ (p : Fin 128) (q : Fin 2048) (P : Fin 8192), P.val = T * 128 + p.val → x1 (ix2 p q) = X1 (ix2 P q))
    (hw0 : ∀ (c q : Fin 2048), w0 (ix2 c q) = Q0 (ix2 c q))
    (hw1 : ∀ (c q : Fin 2048), w1 (ix2 c q) = Q1 (ix2 c q))
    (p : Fin 128) (c : Fin 2048) (P : Fin 8192) (hP : P.val = T * 128 + p.val) :
    k0_pay8 (F := Ideal) x0 x1 w0 w1 (ix2 p c) = yIm X0 X1 Q0 Q1 (ix2 P c) := by
  rw [im_block_apply, yIm_apply]
  simp only [hx0 p _ P hP, hx1 p _ P hP, hw0, hw1, hX0, hX1, hQ0, hQ1]
  exact three_products (fun k => r0 (ix2 P k)) (fun k => r1 (ix2 P k)) (fun k => s0 (ix2 c k)) (fun k => s1 (ix2 c k))

end Cert.KernelIdeal.BlockSpec

end
-- ==== Proof.KernelValue.lean ====
/-
  The kernel's two result arrays after its run.

  The launch walks 64 grid points; point t reads rows 128 t … 128 t + 127 of x_re and x_im and the whole quantized
  weights, and writes rows 128 t … 128 t + 127 of each result.  Those row blocks tile the [8192, 2048] results, so
  each result array ends as one function of the arguments: the real and the imaginary part of the complex product
  of the features with the quantized weights — the imaginary part for real arrays, where the three-product form
  is the four-product form.
-/
import proofs.«150472_j73555609911440_2_alg».proof.Proof.Gen.KernelIdeal.Value
import proofs.«150472_j73555609911440_2_alg».proof.Proof.KernelArrays
import proofs.«150472_j73555609911440_2_alg».proof.Proof.BlockSpec
import proofs.«150472_j73555609911440_2_alg».proof.Proof.Quantizer
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.KernelIdeal.Value Idealize.ShloMosaic Idealize.ShloMosaic.TcCoe
open Idealize.SL.Sem Idealize.ShloMosaic.ValueIdx Cert.Spec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index of each window at point t: the feature and result windows move down one row block per point,
    the weight windows stay on the whole array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The quantized real-part weight of the launch contents. -/
abbrev qRe (c : Dev nD) : SW.Idx → EReal :=
  Cert.ReferenceIdeal.Read.val_main_v22 (F := Ideal) (m ((c : Thread nD τ).loc main_arg2))
/-- The quantized imaginary-part weight of the launch contents. -/
abbrev qIm (c : Dev nD) : SW.Idx → EReal :=
  Cert.ReferenceIdeal.Read.val_main_v45 (F := Ideal) (m ((c : Thread nD τ).loc main_arg3))

/-! ## The blocks a point reads -/

theorem x_re_block (c : Dev nD) (t : Fin cfg0.N) (p : Fin 128) (q : Fin 2048) (P : Fin 8192)
    (hP : P.val = t.val * 128 + p.val) :
    (iblk m c 0 t : Vec Ideal S128x2048 .f32) (ix2 p q)
      = (m ((c : Thread nD τ).loc main_arg0) : S8192x2048.Idx → EReal) (ix2 P q) := by
  have e := idx_facts t
  unfold iblk
  rw [View.read_apply]
  refine (congrFun (V_main_arg0 m c) _).trans (congrArg _ ?_)
  funext a; apply Fin.ext
  match a with
  | ⟨0, _⟩ => show win0_0.index t (0 : Fin 2) * 128 + 1 * p.val = P.val; omega
  | ⟨1, _⟩ => show win0_0.index t (1 : Fin 2) * 2048 + 1 * q.val = q.val; omega

theorem x_im_block (c : Dev nD) (t : Fin cfg0.N) (p : Fin 128) (q : Fin 2048) (P : Fin 8192)
    (hP : P.val = t.val * 128 + p.val) :
    (iblk m c 1 t : Vec Ideal S128x2048 .f32) (ix2 p q)
      = (m ((c : Thread nD τ).loc main_arg1) : S8192x2048.Idx → EReal) (ix2 P q) := by
  have e := idx_facts t
  unfold iblk
  rw [View.read_apply]
  refine (congrFun (V_main_arg1 m c) _).trans (congrArg _ ?_)
  funext a; apply Fin.ext
  match a with
  | ⟨0, _⟩ => show win0_1.index t (0 : Fin 2) * 128 + 1 * p.val = P.val; omega
  | ⟨1, _⟩ => show win0_1.index t (1 : Fin 2) * 2048 + 1 * q.val = q.val; omega

theorem w_re_block (c : Dev nD) (t : Fin cfg0.N) (a b : Fin 2048) :
    (iblk m c 2 t : Vec Ideal S2048x2048 .bf16) (ix2 a b) = qRe m c (ix2 a b) := by
  have e := idx_facts t
  unfold iblk
  rw [View.read_apply]
  refine (congrFun (Cert.KernelIdeal.Arrays.weight_re m c) _).trans (congrArg _ ?_)
  funext d; apply Fin.ext
  match d with
  | ⟨0, _⟩ => show win0_2.index t (0 : Fin 2) * 2048 + 1 * a.val = a.val; omega
  | ⟨1, _⟩ => show win0_2.index t (1 : Fin 2) * 2048 + 1 * b.val = b.val; omega

theorem w_im_block (c : Dev nD) (t : Fin cfg0.N) (a b : Fin 2048) :
    (iblk m c 3 t : Vec Ideal S2048x2048 .bf16) (ix2 a b) = qIm m c (ix2 a b) := by
  have e := idx_facts t
  unfold iblk
  rw [View.read_apply]
  refine (congrFun (Cert.KernelIdeal.Arrays.weight_im m c) _).trans (congrArg _ ?_)
  funext d; apply Fin.ext
  match d with
  | ⟨0, _⟩ => show win0_3.index t (0 : Fin 2) * 2048 + 1 * a.val = a.val; omega
  | ⟨1, _⟩ => show win0_3.index t (1 : Fin 2) * 2048 + 1 * b.val = b.val; omega

/-! ## The real part -/

/-- The first result array: the real part of the complex product. -/
def resRe (c : Dev nD) : SX.Idx → EReal :=
  yRe (m ((c : Thread nD τ).loc main_arg0)) (m ((c : Thread nD τ).loc main_arg1)) (qRe m c) (qIm m c)

/-- What a point leaves for the first result, at an entry of its block, is the real part at the array index the
    block's entry sits at. -/
theorem re_at (c : Dev nD) (t : Fin cfg0.N) (j : S128x2048.Idx) :
    k0_pay7 (F := Ideal) (iblk m c 0 t) (iblk m c 1 t) (iblk m c 2 t) (iblk m c 3 t) j
      = resRe m c (((cfg0.win 4).blk t).view.emb j) := by
  obtain ⟨p, q, rfl⟩ : ∃ (p : Fin 128) (q : Fin 2048), j = ix2 p q := ⟨j 0, j 1, eq_ix2 j⟩
  have hN : cfg0.N = 64 := N_0
  have ht := t.isLt
  have e := idx_facts t
  refine (Cert.KernelIdeal.BlockSpec.re_block_spec (iblk m c 0 t) (iblk m c 1 t) (iblk m c 2 t) (iblk m c 3 t)
    (m ((c : Thread nD τ).loc main_arg0)) (m ((c : Thread nD τ).loc main_arg1)) (qRe m c) (qIm m c) t.val
    (fun p q P hP => x_re_block m c t p q P hP) (fun p q P hP => x_im_block m c t p q P hP)
    (fun a b => w_re_block m c t a b) (fun a b => w_im_block m c t a b)
    p q ⟨t.val * 128 + p.val, by omega⟩ rfl).trans ?_
  unfold resRe
  refine congrArg _ ?_
  funext a; apply Fin.ext
  match a with
  | ⟨0, _⟩ => show t.val * 128 + p.val = win0_4.index t (0 : Fin 2) * 128 + 1 * p.val; omega
  | ⟨1, _⟩ => show q.val = win0_4.index t (1 : Fin 2) * 2048 + 1 * q.val; omega

/-- What point t writes back to the first result is block t of the real part. -/
theorem flushed_re (c : Dev nD) (t : Fin cfg0.N) :
    (dats m 0 c).flushed 4 t = ((cfg0.win 4).blk t).view.read (Elt Ideal) (resRe m c) := by
  rw [Value.flushed4]
  unfold out0_4
  rw [View.canon_unit_zero hz]
  simp only [View.ld_unit_zero (S := S128x2048) hz, View.ld_unit_zero (S := S2048x2048) hz]
  funext j
  exact re_at m c t j

/-- An index of the result array is in point t's block iff each coordinate is in the block's range on its axis. -/
theorem mem_blk4 (t : Fin cfg0.N) (i : S8192x2048.Idx) :
    i ∈ ((cfg0.win 4).blk t).view.set ↔ ∀ a : Fin 2, win0_4.index t a * S128x2048.size a ≤ (i a).val
      ∧ (i a).val < win0_4.index t a * S128x2048.size a + S128x2048.size a := by
  show i ∈ ((View.whole main_v48_0).slice (win0_4.rect t)).set ↔ _
  rw [View.set_slice_whole, Rect.mem_set_unit]
  exact Iff.rfl

/-- Every index of the result array lies in the block of the point that holds its row. -/
theorem cover4 (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  have hN : cfg0.N = 64 := N_0
  have e := idx_facts ⟨(i 0).val / 128, by omega⟩
  refine ⟨⟨(i 0).val / 128, by omega⟩, flush0_4 _, ?_⟩
  rw [mem_blk4]
  intro a
  match a with
  | ⟨0, _⟩ =>
    show win0_4.index _ (0 : Fin 2) * 128 ≤ (i 0).val ∧ (i 0).val < win0_4.index _ (0 : Fin 2) * 128 + 128
    have e' : win0_4.index (⟨(i 0).val / 128, by omega⟩ : Fin cfg0.N) (0 : Fin 2) = (i 0).val / 128 := e.2.2.2.2.2.2.2.2.1
    omega
  | ⟨1, _⟩ =>
    show win0_4.index _ (1 : Fin 2) * 2048 ≤ (i 1).val ∧ (i 1).val < win0_4.index _ (1 : Fin 2) * 2048 + 2048
    have e' : win0_4.index (⟨(i 0).val / 128, by omega⟩ : Fin cfg0.N) (1 : Fin 2) = 0 := e.2.2.2.2.2.2.2.2.2.1
    omega

/-- After the run the first result array is the real part of the complex product. -/
theorem final_re (c : Dev nD) : (dats m 0 c).arrAt 4 cfg0.N = resRe m c :=
  (dats m 0 c).arrAt_eq_of_cover 4 (resRe m c) (fun t _ => flushed_re m c t) cover4

/-! ## The imaginary part -/

/-- The second result array: the imaginary part of the complex product. -/
def resIm (c : Dev nD) : SX.Idx → EReal :=
  yIm (m ((c : Thread nD τ).loc main_arg0)) (m ((c : Thread nD τ).loc main_arg1)) (qRe m c) (qIm m c)

/-- An index of the result array is in point t's block iff each coordinate is in the block's range on its axis. -/
theorem mem_blk5 (t : Fin cfg0.N) (i : S8192x2048.Idx) :
    i ∈ ((cfg0.win 5).blk t).view.set ↔ ∀ a : Fin 2, win0_5.index t a * S128x2048.size a ≤ (i a).val
      ∧ (i a).val < win0_5.index t a * S128x2048.size a + S128x2048.size a := by
  show i ∈ ((View.whole main_v48_1).slice (win0_5.rect t)).set ↔ _
  rw [View.set_slice_whole, Rect.mem_set_unit]
  exact Iff.rfl

/-- Every index of the result array lies in the block of the point that holds its row. -/
theorem cover5 (i : S8192x2048.Idx) :
    ∃ t : Fin cfg0.N, (cfg0.win 5).flush t = true ∧ i ∈ ((cfg0.win 5).blk t).view.set := by
  have hi0 : (i 0).val < 8192 := (i 0).isLt
  have hi1 : (i 1).val < 2048 := (i 1).isLt
  have hN : cfg0.N = 64 := N_0
  have e := idx_facts ⟨(i 0).val / 128, by omega⟩
  refine ⟨⟨(i 0).val / 128, by omega⟩, flush0_5 _, ?_⟩
  rw [mem_blk5]
  intro a
  match a with
  | ⟨0, _⟩ =>
    show win0_5.index _ (0 : Fin 2) * 128 ≤ (i 0).val ∧ (i 0).val < win0_5.index _ (0 : Fin 2) * 128 + 128
    have e' : win0_5.index (⟨(i 0).val / 128, by omega⟩ : Fin cfg0.N) (0 : Fin 2) = (i 0).val / 128 := e.2.2.2.2.2.2.2.2.2.2.1
    omega
  | ⟨1, _⟩ =>
    show win0_5.index _ (1 : Fin 2) * 2048 ≤ (i 1).val ∧ (i 1).val < win0_5.index _ (1 : Fin 2) * 2048 + 2048
    have e' : win0_5.index (⟨(i 0).val / 128, by omega⟩ : Fin cfg0.N) (1 : Fin 2) = 0 := e.2.2.2.2.2.2.2.2.2.2.2
    omega

section Real

variable (c : Dev nD) (r0 r1 : SX.Idx → ℝ) (s0 s1 : SW.Idx → ℝ)
  (h0 : ∀ i, (m ((c : Thread nD τ).loc main_arg0) : SX.Idx → EReal) i = (r0 i : EReal))
  (h1 : ∀ i, (m ((c : Thread nD τ).loc main_arg1) : SX.Idx → EReal) i = (r1 i : EReal))
  (hq0 : ∀ i, qRe m c i = (s0 i : EReal)) (hq1 : ∀ i, qIm m c i = (s1 i : EReal))

include h0 h1 hq0 hq1

/-- What a point leaves for the second result, at an entry of its block, is the imaginary part at the array index
    the block's entry sits at — for real features and real quantized weights. -/
theorem im_at (t : Fin cfg0.N) (j : S128x2048.Idx) :
    k0_pay8 (F := Ideal) (iblk m c 0 t) (iblk m c 1 t) (iblk m c 2 t) (iblk m c 3 t) j
      = resIm m c (((cfg0.win 5).blk t).view.emb j) := by
  obtain ⟨p, q, rfl⟩ : ∃ (p : Fin 128) (q : Fin 2048), j = ix2 p q := ⟨j 0, j 1, eq_ix2 j⟩
  have hN : cfg0.N = 64 := N_0
  have ht := t.isLt
  have e := idx_facts t
  refine (Cert.KernelIdeal.BlockSpec.im_block_spec (iblk m c 0 t) (iblk m c 1 t) (iblk m c 2 t) (iblk m c 3 t)
    (m ((c : Thread nD τ).loc main_arg0)) (m ((c : Thread nD τ).loc main_arg1)) (qRe m c) (qIm m c) t.val
    r0 r1 s0 s1 h0 h1 hq0 hq1
    (fun p q P hP => x_re_block m c t p q P hP) (fun p q P hP => x_im_block m c t p q P hP)
    (fun a b => w_re_block m c t a b) (fun a b => w_im_block m c t a b)
    p q ⟨t.val * 128 + p.val, by omega⟩ rfl).trans ?_
  unfold resIm
  refine congrArg _ ?_
  funext a; apply Fin.ext
  match a with
  | ⟨0, _⟩ => show t.val * 128 + p.val = win0_5.index t (0 : Fin 2) * 128 + 1 * p.val; omega
  | ⟨1, _⟩ => show q.val = win0_5.index t (1 : Fin 2) * 2048 + 1 * q.val; omega

/-- What point t writes back to the second result is block t of the imaginary part. -/
theorem flushed_im (t : Fin cfg0.N) :
    (dats m 0 c).flushed 5 t = ((cfg0.win 5).blk t).view.read (Elt Ideal) (resIm m c) := by
  rw [Value.flushed5]
  unfold out0_5
  rw [View.canon_unit_zero hz]
  simp only [View.ld_unit_zero (S := S128x2048) hz, View.ld_unit_zero (S := S2048x2048) hz]
  funext j
  exact im_at m c r0 r1 s0 s1 h0 h1 hq0 hq1 t j

/-- After the run the second result array is the imaginary part of the complex product. -/
theorem final_im : (dats m 0 c).arrAt 5 cfg0.N = resIm m c :=
  (dats m 0 c).arrAt_eq_of_cover 5 (resIm m c) (fun t _ => flushed_im m c r0 r1 s0 s1 h0 h1 hq0 hq1 t) cover5

end Real

/-- The same for arrays known only to be real entry by entry: the quantized weights of real weights are real. -/
theorem final_im_of_real (c : Dev nD)
    (H0 : ∀ i, ∃ r : ℝ, (m ((c : Thread nD τ).loc main_arg0) : SX.Idx → EReal) i = (r : EReal))
    (H1 : ∀ i, ∃ r : ℝ, (m ((c : Thread nD τ).loc main_arg1) : SX.Idx → EReal) i = (r : EReal))
    (H2 : ∀ i, ∃ r : ℝ, (m ((c : Thread nD τ).loc main_arg2) : SW.Idx → EReal) i = (r : EReal))
    (H3 : ∀ i, ∃ r : ℝ, (m ((c : Thread nD τ).loc main_arg3) : SW.Idx → EReal) i = (r : EReal)) :
    (dats m 0 c).arrAt 5 cfg0.N = resIm m c := by
  choose r0 h0 using H0
  choose r1 h1 using H1
  choose r2 h2 using H2
  choose r3 h3 using H3
  have e2 : (m ((c : Thread nD τ).loc main_arg2) : SW.Idx → EReal) = fun i => (r2 i : EReal) := funext h2
  have e3 : (m ((c : Thread nD τ).loc main_arg3) : SW.Idx → EReal) = fun i => (r3 i : EReal) := funext h3
  have Q0 : ∀ i, ∃ q : ℝ, qRe m c i = (q : EReal) := fun i => by
    show ∃ q : ℝ, Cert.ReferenceIdeal.Read.val_main_v22 (F := Ideal) (m ((c : Thread nD τ).loc main_arg2)) i = (q : EReal)
    rw [e2]; exact Cert.Quant.quant_re_real r2 i
  have Q1 : ∀ i, ∃ q : ℝ, qIm m c i = (q : EReal) := fun i => by
    show ∃ q : ℝ, Cert.ReferenceIdeal.Read.val_main_v45 (F := Ideal) (m ((c : Thread nD τ).loc main_arg3)) i = (q : EReal)
    rw [e3]; exact Cert.Quant.quant_im_real r3 i
  choose s0 hs0 using Q0
  choose s1 hs1 using Q1
  exact final_im m c r0 r1 s0 s1 h0 h1 hs0 hs1

/-- The kernel's run, read: under real arguments the two result arrays end at the real and imaginary parts of the
    complex product of the features with the quantized weights, the arguments unchanged. -/
theorem run
    (H : ∀ c : Dev nD,
      (∀ i, ∃ r : ℝ, (m ((c : Thread nD τ).loc main_arg0) : SX.Idx → EReal) i = (r : EReal))
      ∧ (∀ i, ∃ r : ℝ, (m ((c : Thread nD τ).loc main_arg1) : SX.Idx → EReal) i = (r : EReal))
      ∧ (∀ i, ∃ r : ℝ, (m ((c : Thread nD τ).loc main_arg2) : SW.Idx → EReal) i = (r : EReal))
      ∧ (∀ i, ∃ r : ℝ, (m ((c : Thread nD τ).loc main_arg3) : SW.Idx → EReal) i = (r : EReal))) :
    θ_run defs (onTc (τ := τ) (main (F := Ideal))) ⟨m, fun _ => 0, ρ⟩ fun r => ∀ c : Dev nD,
      r.2.mem ((c : Thread nD τ).loc main_v48_0) = resRe m c
      ∧ r.2.mem ((c : Thread nD τ).loc main_v48_1) = resIm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨(h c).1.trans (final_re m c),
        (h c).2.1.trans (final_im_of_real m c (H c).1 (H c).2.1 (H c).2.2.1 (H c).2.2.2),
        (h c).2.2⟩)
    (Cert.KernelIdeal.Value.run_blocks m ρ)

end Cert.KernelIdeal.Hand

end
-- ==== Proof.lean ====
/-
  A complex-valued linear layer with quantized weights: the kernel's three-product form against the four-product
  form, over the extended reals.

  Both programs first quantize the real and imaginary parts of the weight on the host, by the same operations:
  q = clip (…, −1, 1) · max (mean |w|, 1e-6).  The reference then forms w + (q − w) and the four products
      y_re = x_re · q_reᵀ − x_im · q_imᵀ,        y_im = x_re · q_imᵀ + x_im · q_reᵀ.
  The kernel walks the 8192 feature rows in 64 blocks of 128 and per block forms three products,
      m1 = x_re · q_reᵀ,  m2 = x_im · q_imᵀ,  m3 = (x_re + x_im) · (q_re + q_im)ᵀ,
  storing m1 − m2 and (m3 − m1) − m2.

  The real parts agree term by term.  The imaginary parts agree because (a + b)(c + d) − ac − bd = ad + bc, summed
  over the input features — a law that distributes and cancels, so it needs every entry to be a real number: the
  features and weights are real by the precondition, and the quantized weights are real because a clipped value is
  in [−1, 1] and the scale of a real array is real.  The same finiteness makes w + (q − w) = q.

  The frames are the generated ones; the reference's frame is its generated run with the results dropped; the
  idealization rewrote nothing, so its claim is trivial.
-/
import proofs.«150472_j73555609911440_2_alg».proof.Defs
import proofs.«150472_j73555609911440_2_alg».proof.Proof.Gen.Kernel
import proofs.«150472_j73555609911440_2_alg».proof.Proof.Gen.Kernel.Skeleton
import proofs.«150472_j73555609911440_2_alg».proof.Proof.Gen.Kernel.Launch
import proofs.«150472_j73555609911440_2_alg».proof.Proof.Gen.Kernel.Points
import proofs.«150472_j73555609911440_2_alg».proof.Proof.Gen.Kernel.Frame
import proofs.«150472_j73555609911440_2_alg».proof.Proof.Gen.KernelIdeal
import proofs.«150472_j73555609911440_2_alg».proof.Proof.Gen.KernelIdeal.Skeleton
import proofs.«150472_j73555609911440_2_alg».proof.Proof.Gen.KernelIdeal.Launch
import proofs.«150472_j73555609911440_2_alg».proof.Proof.Gen.KernelIdeal.Points
import proofs.«150472_j73555609911440_2_alg».proof.Proof.Gen.KernelIdeal.Frame
import proofs.«150472_j73555609911440_2_alg».proof.Proof.Gen.ReferenceIdeal
import proofs.«150472_j73555609911440_2_alg».proof.Proof.Gen.Pre_finite_inputs
import proofs.«150472_j73555609911440_2_alg».proof.Proof.Gen.KernelIdeal.Value
import proofs.«150472_j73555609911440_2_alg».proof.Proof.Gen.ReferenceIdeal.Run
import proofs.«150472_j73555609911440_2_alg».proof.Proof.Gen.ReferenceIdeal.Read
import proofs.«150472_j73555609911440_2_alg».proof.Proof.Finite
import proofs.«150472_j73555609911440_2_alg».proof.Proof.RefValue
import proofs.«150472_j73555609911440_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : @Cert.frame_Kernel Cert.Kernel.Gen.facts Cert.Pre_finite_inputs.Gen.facts :=
  fun m ρ _ => Cert.Kernel.Gen.frame m ρ

/-- So does the idealized kernel. -/
theorem frame_kernelIdeal : @Cert.frame_KernelIdeal Cert.KernelIdeal.Gen.facts Cert.Pre_finite_inputs.Gen.facts :=
  fun m ρ _ => Cert.KernelIdeal.Gen.frame m ρ

/-- The reference's frame is its run with the results dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- The two idealized programs, run on arguments that agree, end with the same two result arrays: the real and
    imaginary parts of the complex product of the features with the quantized weights. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hreal := fun c => Cert.Finite.all_real _ _ _ _ (hpre c)
  refine ⟨fun c => Cert.KernelIdeal.Hand.resRe m c, fun c => Cert.KernelIdeal.Hand.resIm m c,
    Cert.KernelIdeal.Hand.run m ρ hreal, ?_⟩
  refine (θ_run Cert.ReferenceIdeal.defs _ _).mono (fun _ h c => ?_) (Cert.ReferenceIdeal.Value.run (F := Ideal) m' ρ')
  obtain ⟨e0, e1, e2, e3⟩ := hagree c
  obtain ⟨hre, him⟩ := Cert.RefValue.results
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (hreal c).2.2.1 (hreal c).2.2.2
  refine ⟨(h c).1.trans ?_, (h c).2.1.trans ?_, (h c).2.2⟩
  · rw [Cert.ReferenceIdeal.Read.val_main_v54_eq, e0, e1, e2, e3]
    exact hre
  · rw [Cert.ReferenceIdeal.Read.val_main_v59_eq, e0, e1, e2, e3]
    exact him

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
